-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x3x512x512 .f32 := Host.absf main_arg1
  let main_cst_0 : FVec F S_ .f32 := constant S_ .f32 0x7F800000#32
  let main_v5 : FVec F S64x3x512x512 .f32 := broadcastInDim S64x3x512x512 ![] bcast_S_S64x3x512x512 main_cst_0
  let main_v6 : IVec S64x3x512x512 1 := cmpf .olt main_v4 main_v5
  let main_c_1 : IVec S_ 1 := constantI S_ 1 1#1
  let main_v7 : IVec S_ 1 := (fun x v => Host.reduce IntOp.andi x v reducesTo_S64x3x512x512_S_d0_1_2_3 h_S_) main_v6 main_c_1
  let main_v8 : IVec S_ 1 := andi main_v3 main_v7
  main_v8
-- ==== Kernel.lean ====
abbrev S64x3x512x512 : Shape := ⟨4, ![64, 3, 512, 512]⟩
abbrev S98304x512 : Shape := ⟨2, ![98304, 512]⟩
abbrev S3072x512 : Shape := ⟨2, ![3072, 512]⟩

abbrev nBuf : Space → Nat
  | .hbm => 6
  | .vmem => 6
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S98304x512, .f32⟩
  | .hbm, ⟨3, _⟩ => ⟨S98304x512, .f32⟩
  | .hbm, ⟨4, _⟩ => ⟨S98304x512, .f32⟩
  | .hbm, ⟨5, _⟩ => ⟨S64x3x512x512, .f32⟩
  | .local _ .vmem, ⟨0, _⟩ => ⟨S3072x512, .f32⟩
  | .local _ .vmem, ⟨1, _⟩ => ⟨S3072x512, .f32⟩
  | .local _ .vmem, ⟨2, _⟩ => ⟨S3072x512, .f32⟩
  | .local _ .vmem, ⟨3, _⟩ => ⟨S3072x512, .f32⟩
  | .local _ .vmem, ⟨4, _⟩ => ⟨S3072x512, .f32⟩
  | .local _ .vmem, ⟨5, _⟩ => ⟨S3072x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x3x512x512_S98304x512 : S64x3x512x512.ShapeCasts S98304x512
  inb_S3072x512_S3072x512_0_0 : ∀ a, (![0, 0] : Fin 2 → Nat) a + S3072x512.size a ≤ S3072x512.size a
  h_S3072x512 : 0 < S3072x512.numel
  shapeCasts_S3072x512_S3072x512 : S3072x512.ShapeCasts S3072x512
  shapeCasts_S98304x512_S64x3x512x512 : S98304x512.ShapeCasts S64x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x512.size a ≤ S98304x512.size a
  hwx0_0 : ∀ i : grid0.Coords, EltTy.bits .f32 = 32 ∨ (Rect.block (s := S98304x512) S3072x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x512.size a ≤ S98304x512.size a
  hwx0_1 : ∀ i : grid0.Coords, EltTy.bits .f32 = 32 ∨ (Rect.block (s := S98304x512) S3072x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x512.size a ≤ S98304x512.size a
  hwx0_2 : ∀ i : grid0.Coords, EltTy.bits .f32 = 32 ∨ (Rect.block (s := S98304x512) S3072x512.size (cc0_transform_2 i) (hinb0_2 i)).WholeWords (EltTy.packing .f32)

variable [Facts₀]

abbrev win0_0 : Pipeline.Window sig grid0 :=
  Pipeline.Window.ofSpec (Memref.whole main_v0) S3072x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3072x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S64x3x512x512 : Shape := ⟨4, ![64, 3, 512, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S_, .f32⟩
  | .hbm, ⟨3, _⟩ => ⟨S64x3x512x512, .f32⟩
  | .hbm, ⟨4, _⟩ => ⟨S64x3x512x512, .i1⟩
  | .hbm, ⟨5, _⟩ => ⟨S_, .f32⟩
  | .hbm, ⟨6, _⟩ => ⟨S64x3x512x512, .f32⟩
  | .hbm, ⟨7, _⟩ => ⟨S64x3x512x512, .i1⟩
  | .hbm, ⟨8, _⟩ => ⟨S_, .f32⟩
  | .hbm, ⟨9, _⟩ => ⟨S64x3x512x512, .f32⟩
  | .hbm, ⟨10, _⟩ => ⟨S64x3x512x512, .f32⟩
  | .hbm, ⟨11, _⟩ => ⟨S_, .f32⟩
  | .hbm, ⟨12, _⟩ => ⟨S64x3x512x512, .f32⟩
  | .hbm, ⟨13, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_call0_v0 : Ref sig .tc := ⟨.hbm, 9, rfl⟩
abbrev main_v4 : Ref sig .tc := ⟨.hbm, 10, rfl⟩
abbrev main_cst_2 : Ref sig .tc := ⟨.hbm, 11, rfl⟩
abbrev main_call1_v0 : Ref sig .tc := ⟨.hbm, 12, rfl⟩
abbrev main_v5 : Ref sig .tc := ⟨.hbm, 13, rfl⟩

abbrev nD : Nat := 1
abbrev τ : Topo := Topo.v7x

variable {F : FTy → Type} [FloatOps F]

class Facts₀ : Prop where
  bcast_S_S64x3x512x512 : S_.BroadcastsInDim S64x3x512x512 (![] : Fin 0 → Fin S64x3x512x512.rank)

variable [Facts₀]

class Facts : Prop extends Facts₀ where

variable [Facts]
-- ==== Proof.SaltPepper.lean ====
/-
  Salt-and-pepper noise, as one function of a pixel and its uniform draw.

  A pixel whose draw `u` is below the half amount (the f32 word 0x3C23D70A, the float nearest 0.01) becomes
  pepper, the word 0; otherwise one whose draw is below the whole amount (0x3CA3D70A, nearest 0.02) becomes
  salt, the word of 1.0; every other pixel is kept. Both programs use these same four words, so none of them is
  ever evaluated: the function is stated over the float operations of any instance, and the array form is the
  pixel function applied index by index. Being pointwise, it commutes with every re-indexing of the arrays —
  which is all that a row-major reshape or a tiling into blocks is.
-/
import Idealize.ShloMosaic.PureOps
import Idealize.ShloMosaic.Lib.Pipeline.Value

noncomputable section

namespace Cert.SaltPepper

open Idealize.ShloMosaic

variable {F : FTy → Type} [FloatOps F]

/-- One pixel `x` with its draw `u`: pepper below the half amount, salt below the whole amount, else `x`. -/
def pixel (u x : F .f32) : F .f32 :=
  Scalar.select (FloatOps.cmpf .olt u (FloatOps.ofBits .f32 0x3C23D70A#32)) (FloatOps.ofBits .f32 0x00000000#32)
    (Scalar.select (FloatOps.cmpf .olt u (FloatOps.ofBits .f32 0x3CA3D70A#32)) (FloatOps.ofBits .f32 0x3F800000#32) x)

/-- The noised image over any index type: pixel by pixel. -/
def noised {ι : Type} (img u : ι → F .f32) : ι → F .f32 := fun i => pixel (u i) (img i)

theorem noised_apply {ι : Type} (img u : ι → F .f32) (i : ι) : noised img u i = pixel (u i) (img i) := rfl

/-- A row-major reshape of the noised image is the noised image of the reshaped arrays: a reshape only moves
    indices, and the noise is applied at each index separately. -/
theorem shapeCast_noised {s t : Shape} (img u : s.Idx → F .f32) (h : s.ShapeCasts t) :
    shapeCast t (noised img u) h = noised (shapeCast t img h) (shapeCast t u h) := rfl

/-- Reshaping both arrays, applying the noise, and reshaping back is applying the noise. -/
theorem shapeCast_noised_shapeCast {s t : Shape} (img u : s.Idx → F .f32) (h : s.ShapeCasts t) (h' : t.ShapeCasts s) :
    shapeCast s (noised (shapeCast t img h) (shapeCast t u h)) h' = noised img u := by
  rw [shapeCast_noised, shapeCast_shapeCast, shapeCast_shapeCast]

end Cert.SaltPepper

end
-- ==== Proof.RefValue.lean ====
/-
  The reference computes the salt-and-pepper function of its two arguments.

  Its two comparisons are of the draw against the two amounts broadcast from scalars, its two selects choose the
  broadcast 0 and 1.0 over the image; read at an index every broadcast is its scalar, so the composed term is the
  pixel function at that index.
-/
import proofs.«143785_j38963943309987_2_alg».proof.Proof.Gen.ReferenceIdeal.Read
import proofs.«143785_j38963943309987_2_alg».proof.Proof.SaltPepper

noncomputable section

namespace Cert.ReferenceIdeal.RefValue

open Cert.ReferenceIdeal Cert.ReferenceIdeal.Gen Idealize.ShloMosaic Cert.SaltPepper

variable {F : FTy → Type} [FloatOps F]

/-- The reference's result, as the stage of its last select, is the noised image of (image, draws). -/
theorem val_eq_noised (x0 x1 : (⟨S64x3x512x512, .f32⟩ : BufTy).Contents (Elt F)) :
    Read.val_main_v5 (F := F) x0 x1 = noised (F := F) x0 x1 := by
  funext i
  rfl

end Cert.ReferenceIdeal.RefValue

end
-- ==== Proof.KernelBlocks.lean ====
/-
  What the kernel's one region leaves in its result array.

  The region works on the two arguments flattened to 98304 rows of 512 (a row-major reshape of each), cut into 32
  blocks of 3072 rows. At grid point `t` it loads block `t` of the draws and of the image, applies the pixel
  function to every position, and stores the result over block `t` of the result array. The three windows share one
  index map (block row `t`, block column 0), so position `j` of every block is row `3072·t + j₀`, column `j₁` of its
  array, and what point `t` writes back is block `t` of ONE whole-array function: the noised image of the two flattened
  arguments. Row `r` lies in block `r / 3072`, so the 32 blocks cover the array and it ends holding that function.
-/
import proofs.«143785_j38963943309987_2_alg».proof.Proof.Gen.KernelIdeal.Frame
import proofs.«143785_j38963943309987_2_alg».proof.Proof.SaltPepper
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat Cfg Window)
open Cert.SaltPepper

variable {F : FTy → Type} [FloatOps F]
variable (m : (ℓ : Loc nD τ sig) → Buf (Elt F) ℓ)

/-- The body's arithmetic on its two loaded blocks (the draws first, the image second) is the noised image of the
    blocks: its two shape casts are to the blocks' own shape, and every other operation acts position by position. -/
theorem payload_eq (u x : Vec F S3072x512 .f32) : k0_pay1 u x = noised (F := F) x u := by
  unfold k0_pay1
  simp only [shapeCast_self]
  rfl

/-- The flattened image as the region finds it: the row-major reshape of the first argument. -/
theorem V_flat_image (c : Dev nD) :
    (V m c main_v0 : S98304x512.Idx → F .f32)
      = shapeCast S98304x512 (m ((c : Thread nD τ).loc main_arg0)) shapeCasts_S64x3x512x512_S98304x512 := by
  show StableHlo.after hostOps0 (fun b => m (c, b)) (Proc.devRef .tc main_v0) = _
  after_results
  rfl

/-- The flattened draws as the region finds them: the row-major reshape of the second argument. -/
theorem V_flat_draws (c : Dev nD) :
    (V m c main_v1 : S98304x512.Idx → F .f32)
      = shapeCast S98304x512 (m ((c : Thread nD τ).loc main_arg1)) shapeCasts_S64x3x512x512_S98304x512 := by
  show StableHlo.after hostOps0 (fun b => m (c, b)) (Proc.devRef .tc main_v1) = _
  after_results
  rfl

/-- The result array's contents after the region, as one function of the flattened arguments. -/
def flatNoised (c : Dev nD) : S98304x512.Idx → F .f32 :=
  noised (F := F) (V m c main_v0 : S98304x512.Idx → F .f32) (V m c main_v1 : S98304x512.Idx → F .f32)

theorem zero_offsets : (![0, 0] : Fin 2 → Nat) = fun _ => 0 := funext fun a => by fin_cases a <;> rfl

/-- The three windows' index maps over the grid: block row `t`, block column 0. -/
theorem index_maps : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 31
    ∧ win0_2.index t (1 : Fin 2) = 0 :=
  (by decide +kernel : ∀ t : Fin grid0.N, _)

/-- Every block row is some point's. -/
theorem block_row_onto : ∀ q : Fin 32, ∃ t : Fin cfg0.N, win0_2.index t = ![q.val, 0] :=
  (by decide +kernel : ∀ q : Fin 32, ∃ t : Fin grid0.N, win0_2.index t = ![q.val, 0])

/-- What point `t` writes back is block `t` of the noised flattened image. -/
theorem flushed_eq (c : Dev nD) (t : Fin cfg0.N) :
    (dats m 0 c).flushed 2 t = ((cfg0.win 2).blk t).view.read (Elt F) (flatNoised m c) := by
  show (cfg0.win 2).cut (grid0.coords t) ((dats m 0 c).after 2 t) = _
  rw [after0_2]
  unfold out0_2
  rw [View.canon_unit_zero zero_offsets]
  simp only [View.ld_unit_zero (S := S3072x512) zero_offsets]
  rw [payload_eq]
  obtain ⟨e0, e1, e2, e3, e4, e5⟩ := index_maps t
  funext j
  show pixel (V m c main_v1 (((cfg0.win 1).blk t).view.emb j)) (V m c main_v0 (((cfg0.win 0).blk t).view.emb j))
    = pixel (V m c main_v1 (((cfg0.win 2).blk t).view.emb j)) (V m c main_v0 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 3072 + 1 * (j 0).val = win0_2.index t (0 : Fin 2) * 3072 + 1 * (j 0).val; omega
    | ⟨1, _⟩ => show win0_0.index t (1 : Fin 2) * 512 + 1 * (j 1).val = win0_2.index t (1 : Fin 2) * 512 + 1 * (j 1).val; omega
  have h1 : ((cfg0.win 1).blk t).view.emb j = ((cfg0.win 2).blk t).view.emb j := by
    funext a; apply Fin.ext
    match a with
    | ⟨0, _⟩ => show win0_1.index t (0 : Fin 2) * 3072 + 1 * (j 0).val = win0_2.index t (0 : Fin 2) * 3072 + 1 * (j 0).val; omega
    | ⟨1, _⟩ => show win0_1.index t (1 : Fin 2) * 512 + 1 * (j 1).val = win0_2.index t (1 : Fin 2) * 512 + 1 * (j 1).val; omega
  rw [h0, h1]

/-- An index of the result array is in point `t`'s block iff each coordinate is in the block's range on its axis. -/
theorem mem_block (t : Fin cfg0.N) (i : S98304x512.Idx) :
    i ∈ ((cfg0.win 2).blk t).view.set ↔ ∀ a : Fin 2, win0_2.index t a * S3072x512.size a ≤ (i a).val ∧ (i a).val < win0_2.index t a * S3072x512.size a + S3072x512.size a := by
  show i ∈ ((View.whole main_v2).slice (win0_2.rect t)).set ↔ _
  rw [View.set_slice_whole, Rect.mem_set_unit]
  exact Iff.rfl

/-- Row `r` is in block `r / 3072`: the blocks cover the result array. -/
theorem blocks_cover (i : S98304x512.Idx) :
    ∃ t : Fin cfg0.N, (cfg0.win 2).flush t = true ∧ i ∈ ((cfg0.win 2).blk t).view.set := by
  have hi0 : (i 0).val < 98304 := (i 0).isLt
  have hi1 : (i 1).val < 512 := (i 1).isLt
  obtain ⟨t, ht⟩ := block_row_onto ⟨(i 0).val / 3072, by omega⟩
  have q0 : win0_2.index t (0 : Fin 2) = (i 0).val / 3072 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 3072 ≤ (i 0).val ∧ (i 0).val < win0_2.index t (0 : Fin 2) * 3072 + 3072; omega
  | ⟨1, _⟩ => show win0_2.index t (1 : Fin 2) * 512 ≤ (i 1).val ∧ (i 1).val < win0_2.index t (1 : Fin 2) * 512 + 512; omega

/-- The result array after the region is the noised flattened image. -/
theorem final (c : Dev nD) : (dats m 0 c).arrAt 2 cfg0.N = flatNoised m c :=
  (dats m 0 c).arrAt_eq_of_cover 2 (flatNoised m c) (fun t _ => flushed_eq m c t) blocks_cover

end Cert.KernelIdeal.Blocks

end
-- ==== Proof.KernelRun.lean ====
/-
  The idealized kernel's run, read as a value.

  After the region the program reshapes the 98304 x 512 result array back to the image's shape. The region leaves
  that array at the noised image of the two FLATTENED arguments (the blocks' cover), each flattened argument is the
  row-major reshape of the argument itself, and the noise acts index by index, so it passes through both reshapes:
  flattening, noising and un-flattening is noising. Hence every run of the program ends with its result at the
  noised image of its two arguments, and the arguments as they were.
-/
import proofs.«143785_j38963943309987_2_alg».proof.Proof.KernelBlocks

set_option maxRecDepth 16384

noncomputable section

namespace Cert.KernelIdeal.RunValue

open Cert.KernelIdeal Cert.KernelIdeal.Gen Idealize.ShloMosaic Idealize.ShloMosaic.TcCoe Idealize.SL.Sem
open Cert.SaltPepper

variable {F : FTy → Type} [FloatOps F]
variable (m : (ℓ : Loc nD τ sig) → Buf (Elt F) ℓ) (ρ : Dev nD → PrngReg)

/-- The program's result after its last line — the result array of the region reshaped to the image's shape — is
    the noised image of the two arguments. -/
theorem result_eq (c : Dev nD) :
    (Pipeline.afterTail₀ cfgs (dats m) 0 (V0 m) [hostOps1] c main_v3 : S64x3x512x512.Idx → F .f32)
      = noised (F := F) (m ((c : Thread nD τ).loc main_arg0)) (m ((c : Thread nD τ).loc main_arg1)) := by
  unfold Pipeline.afterTail₀
  show StableHlo.after hostOps1 _ (Proc.devRef .tc main_v3) = _
  after_results
  have hw : Pipeline.withArrays spec0 c (V0 m c) (fun w => (dats m 0 c).arrAt w cfg0.N) (Proc.devRef .tc (Pipeline.arrRef spec0 2))
      = Blocks.flatNoised m c :=
    (Pipeline.withArrays_arr spec0 launch0.win.arr_inj c _ _ 2).trans (Blocks.final m c)
  show shapeCast S64x3x512x512 (Pipeline.withArrays spec0 c (V0 m c) (fun w => (dats m 0 c).arrAt w cfg0.N) (Proc.devRef .tc (Pipeline.arrRef spec0 2))) shapeCasts_S98304x512_S64x3x512x512 = _
  rw [hw]
  unfold Blocks.flatNoised
  rw [Blocks.V_flat_image, Blocks.V_flat_draws]
  exact shapeCast_noised_shapeCast _ _ _ _

/-- Every weakly fair execution of the idealized kernel terminates with its result at the noised image of its
    arguments, and its arguments unchanged. -/
theorem run : θ_run defs (onTc (τ := τ) (main (F := F))) ⟨m, fun _ => 0, ρ⟩ fun r => ∀ c : Dev nD,
      r.2.mem ((c.tc : Thread nD τ).loc main_v3)
        = noised (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.RunValue

end
-- ==== Proof.lean ====
/-
  Salt-and-pepper noise as a tiled kernel against its array-level reference, equal on the extended reals.

  Both programs replace a pixel by 0 where its uniform draw is below the float nearest 0.01, else by 1.0 where the
  draw is below the float nearest 0.02, and keep it otherwise; they spell the two thresholds, 0 and 1.0 with the same
  four f32 words, so the two results are one function of the arguments without any word being evaluated, and the
  inputs' finiteness is never used. The reference applies the function to the whole [64, 3, 512, 512] arrays. The
  kernel flattens both arrays to [98304, 512], applies it block by block over 32 blocks of 3072 rows, and reshapes
  the result back; the function being pointwise, neither the tiling nor the two reshapes change it.

  The three frames are the generated frame runs (the reference's with its result dropped); the idealization rewrote
  nothing, so there is nothing to preserve; the two idealized runs end at the same noised image of arguments that
  agree.
-/
import proofs.«143785_j38963943309987_2_alg».proof.Defs
import proofs.«143785_j38963943309987_2_alg».proof.Proof.Gen.Kernel
import proofs.«143785_j38963943309987_2_alg».proof.Proof.Gen.Kernel.Skeleton
import proofs.«143785_j38963943309987_2_alg».proof.Proof.Gen.Kernel.Launch
import proofs.«143785_j38963943309987_2_alg».proof.Proof.Gen.Kernel.Points
import proofs.«143785_j38963943309987_2_alg».proof.Proof.Gen.Kernel.Frame
import proofs.«143785_j38963943309987_2_alg».proof.Proof.Gen.KernelIdeal
import proofs.«143785_j38963943309987_2_alg».proof.Proof.Gen.KernelIdeal.Skeleton
import proofs.«143785_j38963943309987_2_alg».proof.Proof.Gen.KernelIdeal.Launch
import proofs.«143785_j38963943309987_2_alg».proof.Proof.Gen.KernelIdeal.Points
import proofs.«143785_j38963943309987_2_alg».proof.Proof.Gen.KernelIdeal.Frame
import proofs.«143785_j38963943309987_2_alg».proof.Proof.Gen.ReferenceIdeal
import proofs.«143785_j38963943309987_2_alg».proof.Proof.Gen.ReferenceIdeal.Run
import proofs.«143785_j38963943309987_2_alg».proof.Proof.Gen.ReferenceIdeal.Read
import proofs.«143785_j38963943309987_2_alg».proof.Proof.RefValue
import proofs.«143785_j38963943309987_2_alg».proof.Proof.KernelRun
import proofs.«143785_j38963943309987_2_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel ends at the noised image of its arguments (its blocks' cover and the two
    reshapes) and the reference at its composed selects of its own, which is the same function of the same arrays. -/
theorem algebraic : Cert.algebraic_KernelIdeal_ReferenceIdeal := by
  intro m ρ m' ρ' _ hagree
  refine ⟨_, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.ReferenceIdeal.RefValue.val_eq_noised _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
